-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x256x256 : Shape := ⟨4, ![8, 32, 256, 256]⟩
abbrev S8x256x256 : Shape := ⟨3, ![8, 256, 256]⟩
abbrev S_ : Shape := ⟨0, ![]⟩

class Facts : Prop where
  bcast_S_S8x32x256x256 : S_.BroadcastsInDim S8x32x256x256 (![] : Fin 0 → Fin S8x32x256x256.rank)
  reducesTo_S8x32x256x256_S_d0_1_2_3 : S8x32x256x256.ReducesTo [0, 1, 2, 3] S_
  h_S_ : 0 < S_.numel

variable [Facts]

def fn {F : FTy → Type} [FloatOps F] (main_arg0 : FVec F S8x32x256x256 .f32) (main_arg1 : FVec F S8x32x256x256 .f32) (main_arg2 : IVec S8x256x256 32) : IVec S_ 1 :=
  let main_v0 : FVec F S8x32x256x256 .f32 := Host.absf main_arg0
  let main_cst : FVec F S_ .f32 := constant S_ .f32 0x7F800000#32
  let main_v1 : FVec F S8x32x256x256 .f32 := broadcastInDim S8x32x256x256 ![] bcast_S_S8x32x256x256 main_cst
  let main_v2 : IVec S8x32x256x256 1 := cmpf .olt main_v0 main_v1
  let main_c : IVec S_ 1 := constantI S_ 1 1#1
  let main_v3 : IVec S_ 1 := (fun x v => Host.reduce IntOp.andi x v reducesTo_S8x32x256x256_S_d0_1_2_3 h_S_) main_v2 main_c
  let main_v4 : FVec F S8x32x256x256 .f32 := Host.absf main_arg1
  let main_cst_0 : FVec F S_ .f32 := constant S_ .f32 0x7F800000#32
  let main_v5 : FVec F S8x32x256x256 .f32 := broadcastInDim S8x32x256x256 ![] bcast_S_S8x32x256x256 main_cst_0
  let main_v6 : IVec S8x32x256x256 1 := cmpf .olt main_v4 main_v5
  let main_c_1 : IVec S_ 1 := constantI S_ 1 1#1
  let main_v7 : IVec S_ 1 := (fun x v => Host.reduce IntOp.andi x v reducesTo_S8x32x256x256_S_d0_1_2_3 h_S_) main_v6 main_c_1
  let main_v8 : IVec S_ 1 := andi main_v3 main_v7
  main_v8
-- ==== Kernel.lean ====
abbrev S8x32x256x256 : Shape := ⟨4, ![8, 32, 256, 256]⟩
abbrev S8x256x256 : Shape := ⟨3, ![8, 256, 256]⟩
abbrev S1x32x64x256 : Shape := ⟨4, ![1, 32, 64, 256]⟩
abbrev S1x64x256 : Shape := ⟨3, ![1, 64, 256]⟩
abbrev S32x64x256 : Shape := ⟨3, ![32, 64, 256]⟩
abbrev S64x256 : Shape := ⟨2, ![64, 256]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8x32x256x256, .f32⟩
  | .hbm, ⟨1, _⟩ => ⟨S8x32x256x256, .f32⟩
  | .hbm, ⟨2, _⟩ => ⟨S8x256x256, .i32⟩
  | .hbm, ⟨3, _⟩ => ⟨S8x256x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x32x64x256, .f32⟩
  | .local _ .vmem, ⟨1, _⟩ => ⟨S1x32x64x256, .f32⟩
  | .local _ .vmem, ⟨2, _⟩ => ⟨S1x32x64x256, .f32⟩
  | .local _ .vmem, ⟨3, _⟩ => ⟨S1x32x64x256, .f32⟩
  | .local _ .vmem, ⟨4, _⟩ => ⟨S1x64x256, .i32⟩
  | .local _ .vmem, ⟨5, _⟩ => ⟨S1x64x256, .i32⟩
  | .local _ .vmem, ⟨6, _⟩ => ⟨S1x64x256, .f32⟩
  | .local _ .vmem, ⟨7, _⟩ => ⟨S1x64x256, .f32⟩
  | _, _ => ⟨S8x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x32x64x256_S1x32x64x256_0_0_0_0 : ∀ a, (![0, 0, 0, 0] : Fin 4 → Nat) a + S1x32x64x256.size a ≤ S1x32x64x256.size a
  h_S1x32x64x256 : 0 < S1x32x64x256.numel
  shapeCasts_S1x32x64x256_S32x64x256 : S1x32x64x256.ShapeCasts S32x64x256
  reduces_S32x64x256_S64x256 : S32x64x256.Reduces [0] S64x256
  shapeCasts_S64x256_S1x64x256 : S64x256.ShapeCasts S1x64x256
  broadcasts_S1x64x256_S32x64x256 : S1x64x256.Broadcasts S32x64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reducesTo_S8x256x256_S_d0_1_2 : S8x256x256.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x256.size a ≤ S8x32x256x256.size a
  hwx0_0 : ∀ i : grid0.Coords, EltTy.bits .f32 = 32 ∨ (Rect.block (s := S8x32x256x256) S1x32x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x256.size a ≤ S8x32x256x256.size a
  hwx0_1 : ∀ i : grid0.Coords, EltTy.bits .f32 = 32 ∨ (Rect.block (s := S8x32x256x256) S1x32x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S8x256x256.size a
  hwx0_2 : ∀ i : grid0.Coords, EltTy.bits .i32 = 32 ∨ (Rect.block (s := S8x256x256) S1x64x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S8x256x256.size a
  hwx0_3 : ∀ i : grid0.Coords, EltTy.bits .f32 = 32 ∨ (Rect.block (s := S8x256x256) S1x64x256.size (cc0_transform_3 i) (hinb0_3 i)).WholeWords (EltTy.packing .f32)

variable [Facts₀]

abbrev win0_0 : Pipeline.Window sig grid0 :=
  Pipeline.Window.ofSpec (Memref.whole main_arg0) S1x32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x256x256 : Shape := ⟨4, ![8, 32, 256, 256]⟩
abbrev S8x256x256 : Shape := ⟨3, ![8, 256, 256]⟩
abbrev S_ : Shape := ⟨0, ![]⟩
abbrev S8x1x256x256 : Shape := ⟨4, ![8, 1, 256, 256]⟩

abbrev nBuf : Space → Nat
  | .hbm => 83
  | .vmem => 0
  | .smem => 0
  | _ => 0

abbrev bufTy : (tb : Table) → Fin (tcTables nBuf tb) → BufTy
  | .hbm, ⟨0, _⟩ => ⟨S8x32x256x256, .f32⟩
  | .hbm, ⟨1, _⟩ => ⟨S8x32x256x256, .f32⟩
  | .hbm, ⟨2, _⟩ => ⟨S8x256x256, .i32⟩
  | .hbm, ⟨3, _⟩ => ⟨S_, .f32⟩
  | .hbm, ⟨4, _⟩ => ⟨S8x256x256, .f32⟩
  | .hbm, ⟨5, _⟩ => ⟨S_, .f32⟩
  | .hbm, ⟨6, _⟩ => ⟨S8x256x256, .f32⟩
  | .hbm, ⟨7, _⟩ => ⟨S8x256x256, .f32⟩
  | .hbm, ⟨8, _⟩ => ⟨S8x1x256x256, .f32⟩
  | .hbm, ⟨9, _⟩ => ⟨S8x32x256x256, .f32⟩
  | .hbm, ⟨10, _⟩ => ⟨S8x32x256x256, .f32⟩
  | .hbm, ⟨11, _⟩ => ⟨S8x32x256x256, .f32⟩
  | .hbm, ⟨12, _⟩ => ⟨S_, .f32⟩
  | .hbm, ⟨13, _⟩ => ⟨S8x256x256, .f32⟩
  | .hbm, ⟨14, _⟩ => ⟨S8x1x256x256, .f32⟩
  | .hbm, ⟨15, _⟩ => ⟨S8x32x256x256, .f32⟩
  | .hbm, ⟨16, _⟩ => ⟨S8x32x256x256, .f32⟩
  | .hbm, ⟨17, _⟩ => ⟨S_, .f32⟩
  | .hbm, ⟨18, _⟩ => ⟨S8x256x256, .f32⟩
  | .hbm, ⟨19, _⟩ => ⟨S_, .f32⟩
  | .hbm, ⟨20, _⟩ => ⟨S8x256x256, .f32⟩
  | .hbm, ⟨21, _⟩ => ⟨S8x256x256, .f32⟩
  | .hbm, ⟨22, _⟩ => ⟨S8x1x256x256, .f32⟩
  | .hbm, ⟨23, _⟩ => ⟨S8x32x256x256, .f32⟩
  | .hbm, ⟨24, _⟩ => ⟨S8x32x256x256, .f32⟩
  | .hbm, ⟨25, _⟩ => ⟨S8x32x256x256, .f32⟩
  | .hbm, ⟨26, _⟩ => ⟨S_, .f32⟩
  | .hbm, ⟨27, _⟩ => ⟨S8x256x256, .f32⟩
  | .hbm, ⟨28, _⟩ => ⟨S8x1x256x256, .f32⟩
  | .hbm, ⟨29, _⟩ => ⟨S8x32x256x256, .f32⟩
  | .hbm, ⟨30, _⟩ => ⟨S8x32x256x256, .f32⟩
  | .hbm, ⟨31, _⟩ => ⟨S_, .f32⟩
  | .hbm, ⟨32, _⟩ => ⟨S8x256x256, .f32⟩
  | .hbm, ⟨33, _⟩ => ⟨S_, .f32⟩
  | .hbm, ⟨34, _⟩ => ⟨S8x256x256, .f32⟩
  | .hbm, ⟨35, _⟩ => ⟨S8x256x256, .f32⟩
  | .hbm, ⟨36, _⟩ => ⟨S_, .f32⟩
  | .hbm, ⟨37, _⟩ => ⟨S8x256x256, .f32⟩
  | .hbm, ⟨38, _⟩ => ⟨S_, .f32⟩
  | .hbm, ⟨39, _⟩ => ⟨S8x256x256, .f32⟩
  | .hbm, ⟨40, _⟩ => ⟨S8x256x256, .f32⟩
  | .hbm, ⟨41, _⟩ => ⟨S8x32x256x256, .f32⟩
  | .hbm, ⟨42, _⟩ => ⟨S_, .f32⟩
  | .hbm, ⟨43, _⟩ => ⟨S8x256x256, .f32⟩
  | .hbm, ⟨44, _⟩ => ⟨S_, .f32⟩
  | .hbm, ⟨45, _⟩ => ⟨S8x256x256, .f32⟩
  | .hbm, ⟨46, _⟩ => ⟨S8x256x256, .f32⟩
  | .hbm, ⟨47, _⟩ => ⟨S8x32x256x256, .f32⟩
  | .hbm, ⟨48, _⟩ => ⟨S_, .f32⟩
  | .hbm, ⟨49, _⟩ => ⟨S8x256x256, .f32⟩
  | .hbm, ⟨50, _⟩ => ⟨S_, .f32⟩
  | .hbm, ⟨51, _⟩ => ⟨S8x256x256, .f32⟩
  | .hbm, ⟨52, _⟩ => ⟨S8x256x256, .f32⟩
  | .hbm, ⟨53, _⟩ => ⟨S8x32x256x256, .f32⟩
  | .hbm, ⟨54, _⟩ => ⟨S_, .f32⟩
  | .hbm, ⟨55, _⟩ => ⟨S8x256x256, .f32⟩
  | .hbm, ⟨56, _⟩ => ⟨S_, .f32⟩
  | .hbm, ⟨57, _⟩ => ⟨S8x256x256, .f32⟩
  | .hbm, ⟨58, _⟩ => ⟨S8x256x256, .f32⟩
  | .hbm, ⟨59, _⟩ => ⟨S8x256x256, .f32⟩
  | .hbm, ⟨60, _⟩ => ⟨S8x256x256, .f32⟩
  | .hbm, ⟨61, _⟩ => ⟨S8x256x256, .f32⟩
  | .hbm, ⟨62, _⟩ => ⟨S8x256x256, .f32⟩
  | .hbm, ⟨63, _⟩ => ⟨S8x256x256, .f32⟩
  | .hbm, ⟨64, _⟩ => ⟨S8x256x256, .f32⟩
  | .hbm, ⟨65, _⟩ => ⟨S8x256x256, .f32⟩
  | .hbm, ⟨66, _⟩ => ⟨S8x256x256, .f32⟩
  | .hbm, ⟨67, _⟩ => ⟨S8x256x256, .f32⟩
  | .hbm, ⟨68, _⟩ => ⟨S8x256x256, .f32⟩
  | .hbm, ⟨69, _⟩ => ⟨S_, .i32⟩
  | .hbm, ⟨70, _⟩ => ⟨S8x256x256, .i32⟩
  | .hbm, ⟨71, _⟩ => ⟨S8x256x256, .i1⟩
  | .hbm, ⟨72, _⟩ => ⟨S_, .f32⟩
  | .hbm, ⟨73, _⟩ => ⟨S8x256x256, .f32⟩
  | .hbm, ⟨74, _⟩ => ⟨S8x256x256, .f32⟩
  | .hbm, ⟨75, _⟩ => ⟨S_, .f32⟩
  | .hbm, ⟨76, _⟩ => ⟨S8x256x256, .f32⟩
  | .hbm, ⟨77, _⟩ => ⟨S8x256x256, .f32⟩
  | .hbm, ⟨78, _⟩ => ⟨S8x256x256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S8x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_13 : Ref sig .tc := ⟨.hbm, 54, rfl⟩
abbrev main_v37 : Ref sig .tc := ⟨.hbm, 55, rfl⟩
abbrev main_cst_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_v50 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  reducesTo_S8x32x256x256_S8x256x256_d1 : S8x32x256x256.ReducesTo [1] S8x256x256
  h_S_ : 0 < S_.numel
  bcast_S_S8x256x256 : S_.BroadcastsInDim S8x256x256 (![] : Fin 0 → Fin S8x256x256.rank)
  bcast_S8x256x256_S8x1x256x256_0_2_3 : S8x256x256.BroadcastsInDim S8x1x256x256 (![0, 2, 3] : Fin 3 → Fin S8x1x256x256.rank)
  bcast_S8x1x256x256_S8x32x256x256_0_1_2_3 : S8x1x256x256.BroadcastsInDim S8x32x256x256 (![0, 1, 2, 3] : Fin 4 → Fin S8x32x256x256.rank)
  reducesTo_S8x256x256_S_d0_1_2 : S8x256x256.ReducesTo [0, 1, 2] S_

variable [Facts₀]

class Facts : Prop extends Facts₀ where

variable [Facts]
-- ==== Proof.PearsonSpec.lean ====
/-
  The per-pixel loss both programs compute, as ONE function on the extended reals.

  A pixel carries two columns of 32 channel values, `a` and `b`, and an integer mark `g`. Each column is turned into
  softmax weights: subtract the column's largest entry, exponentiate, divide by the sum of the exponentials. With
  `p = soft a`, `q = soft b` and `E f` the mean of `f` over the 32 channels, the score is the correlation
      (E (p q) - E p · E q) / (√(E (p p) - E p · E p) · √(E (q q) - E q · E q)),
  and the pixel's loss is `1 - score` where the mark is zero and `max score 0` elsewhere.

  The mean over 32 channels is written here as the sum times 2⁻⁵. A program that divides the sum by 32 instead computes the
  same extended real (`div_thirtyTwo`): the quotient by a nonzero real is the product with its reciprocal at the
  infinities too. A program that takes `max (-∞) m` of a column's maximum `m` computes `m` (`max_colMax`), and one that
  starts a sum from the zero pattern adds nothing (`zero_add_f32`). These three are the only places where the two programs'
  texts differ at a pixel; none of them needs the inputs to be finite.
-/
import Idealize.ShloMosaic.PureOps.Ideal
import Idealize.ShloMosaic.PureOps.Ideal.Laws
import Idealize.ShloMosaic.Lib.ValueIdx

noncomputable section

namespace Cert.Pearson

open Idealize.ShloMosaic Idealize.ShloMosaic.ValueIdx

/-! ## The function -/

/-- A column's largest entry: the fold of `max` over the 32 channels from `-∞` (the f32 pattern `0xFF800000`). -/
def colMax (a : Fin 32 → EReal) : EReal :=
  (Finset.univ : Finset (Fin 32)).fold max (Ideal.ofBits .f32 0xFF800000#32) a

/-- Entry `k` of the column, shifted by the column's maximum and exponentiated. -/
def shifted (a : Fin 32 → EReal) (k : Fin 32) : EReal := Ideal.exp (a k - colMax a)

/-- Softmax weight `k` of the column. -/
def soft (a : Fin 32 → EReal) (k : Fin 32) : EReal := Ideal.div (shifted a k) (∑ k', shifted a k')

/-- The mean of 32 values: their sum times 2⁻⁵ (the f32 pattern `0x3D000000`). -/
def mean32 (f : Fin 32 → EReal) : EReal := (∑ k, f k) * Ideal.ofBits .f32 0x3D000000#32

/-- The correlation of the two columns' softmax weights across the channels. -/
def score (a b : Fin 32 → EReal) : EReal :=
  Ideal.div
    (mean32 (fun k => soft a k * soft b k) - mean32 (soft a) * mean32 (soft b))
    (Ideal.sqrt (mean32 (fun k => soft a k * soft a k) - mean32 (soft a) * mean32 (soft a))
      * Ideal.sqrt (mean32 (fun k => soft b k * soft b k) - mean32 (soft b) * mean32 (soft b)))

/-- The pixel's loss: `1 - score` where the mark is zero, `max score 0` elsewhere. -/
def pixel (a b : Fin 32 → EReal) (g : BitVec 32) : EReal :=
  Scalar.select (IntOp.cmpi .eq g 0#32)
    (Ideal.ofBits .f32 0x3F800000#32 - score a b)
    (max (score a b) (Ideal.ofBits .f32 0x00000000#32))

/-- The loss at every pixel `(n, h, w)` of the two `[8, 32, 256, 256]` arrays and the `[8, 256, 256]` marks: the columns are
    the arrays' entries `(n, ·, h, w)`. -/
def lossMap (x0 x1 : (⟨4, ![8, 32, 256, 256]⟩ : Shape).Idx → EReal) (x2 : (⟨3, ![8, 256, 256]⟩ : Shape).Idx → BitVec 32) :
    (⟨3, ![8, 256, 256]⟩ : Shape).Idx → EReal :=
  fun i => pixel (fun k => x0 (ix4 (i 0) k (i 1) (i 2))) (fun k => x1 (ix4 (i 0) k (i 1) (i 2))) (x2 i)

/-- The mean over all 8 · 256 · 256 pixels as both programs compute it after their per-pixel arrays: the sum of every entry,
    started from the zero pattern, divided by 524288 (the f32 pattern `0x49000000`). Both programs end with these same two
    operations, so nothing here is ever opened: the two results are this one function of equal arrays. -/
def meanAll (y : (⟨3, ![8, 256, 256]⟩ : Shape).Idx → EReal) : (⟨0, ![]⟩ : Shape).Idx → EReal :=
  Host.divf (F := Ideal) (φ := .f32)
    (Host.reduceAdd (F := Ideal) (φ := .f32) (axes := [0, 1, 2]) (t := ⟨0, ![]⟩) y (constant (F := Ideal) ⟨0, ![]⟩ .f32 0x00000000#32))
    (constant (F := Ideal) ⟨0, ![]⟩ .f32 0x49000000#32)

/-- The result of either program: the mean of the loss map. -/
def loss (x0 x1 : (⟨4, ![8, 32, 256, 256]⟩ : Shape).Idx → EReal) (x2 : (⟨3, ![8, 256, 256]⟩ : Shape).Idx → BitVec 32) :
    (⟨0, ![]⟩ : Shape).Idx → EReal :=
  meanAll (lossMap x0 x1 x2)

/-! ## The three laws that join two spellings of it -/

/-- The fold of `max` from `-∞` is at least `-∞`, so taking `max` with `-∞` once more changes nothing. -/
theorem max_colMax (a : Fin 32 → EReal) : max (Ideal.ofBits .f32 0xFF800000#32) (colMax a) = colMax a :=
  max_eq_right ((Finset.le_fold_max _).mpr (Or.inl le_rfl))

/-- The f32 pattern of `32.0` denotes the real 32, and that of `0.03125` its reciprocal. -/
theorem ofBits_thirtyTwo : Ideal.ofBits .f32 0x42000000#32 = ((32 : ℝ) : EReal) := by
  simp [Ideal.ofBits, Ideal.ieee, -EReal.coe_mul]; norm_num

theorem ofBits_inv_thirtyTwo : Ideal.ofBits .f32 0x3D000000#32 = ((1 / 32 : ℝ) : EReal) := by
  simp [Ideal.ofBits, Ideal.ieee, -EReal.coe_mul]; norm_num

/-- Dividing by 32 is multiplying by 2⁻⁵, on every extended real. -/
theorem div_thirtyTwo (s : EReal) :
    Ideal.div s (Ideal.ofBits .f32 0x42000000#32) = s * Ideal.ofBits .f32 0x3D000000#32 := by
  rw [ofBits_thirtyTwo, ofBits_inv_thirtyTwo]
  exact Ideal.div_coe (by norm_num : (32 : ℝ) ≠ 0) s

/-- A sum started from the zero pattern is the sum. -/
theorem zero_add_f32 (s : EReal) : Ideal.ofBits .f32 0x00000000#32 + s = s := by
  rw [Ideal.ofBits_zero_f32, zero_add]

end Cert.Pearson

end
-- ==== Proof.PearsonReference.lean ====
/-
  The reference program's per-pixel array is the loss map.

  The reference works on the whole `[8, 32, 256, 256]` arrays: a maximum over the channel axis (taken once more against
  `-∞`), broadcast back over the channels; the shifted exponentials; their sum over the channels, broadcast back; the
  quotient — the softmax weights —; five sums over the channels, each divided by 32; the correlation; the choice by the
  mark. Read at a pixel `(n, h, w)`, every one of these stages depends only on the two columns `(n, ·, h, w)` and the
  mark at `(n, h, w)`, and is the corresponding stage of `Cert.Pearson.pixel`.
-/
import proofs.«124910_j17016660427303_1_alg».proof.Proof.Gen.ReferenceIdeal.Read
import proofs.«124910_j17016660427303_1_alg».proof.Proof.PearsonSpec
import Idealize.ShloMosaic.Lib.ValueIdx
import Idealize.ShloMosaic.PureOps.Ideal.Laws

noncomputable section

namespace Cert.Pearson.Ref

open Cert.ReferenceIdeal Cert.ReferenceIdeal.Gen Cert.ReferenceIdeal.Read
open Idealize.ShloMosaic Idealize.ShloMosaic.ValueIdx Cert.Pearson

/-- The column `(n, ·, h, w)` of an `[8, 32, 256, 256]` array. -/
abbrev col (x : S8x32x256x256.Idx → EReal) (n : Fin 8) (h w : Fin 256) : Fin 32 → EReal :=
  fun k => x (ix4 n k h w)

/-! ## The softmax weights -/

/-- The maximum over the channel axis at `(n, h, w)` is the column's maximum. -/
theorem chanMax_apply (x : S8x32x256x256.Idx → EReal) (n : Fin 8) (h w : Fin 256) :
    val_main_v0 (F := Ideal) x (ix3 n h w) = colMax (col x n h w) := by
  have hr : S8x32x256x256.Reduces [1] S8x256x256 := by decide
  have e : x ∘ hr.lift (ix3 n h w) = col x n h w := funext fun k => congrArg x (funext fun a => Fin.ext (by
    match a with | ⟨0, _⟩ => rfl | ⟨1, _⟩ => rfl | ⟨2, _⟩ => rfl | ⟨3, _⟩ => rfl))
  unfold val_main_v0
  refine (Host.reduce_eq_fold_single (FloatOps.maximumf (F := Ideal) (φ := .f32)) x _
    reducesTo_S8x32x256x256_S8x256x256_d1 hr h_S_ (ix3 n h w)).trans ?_
  rw [e]
  rfl

/-- The shifted exponential at `(n, k, h, w)`: the maximum it subtracts was taken once more against `-∞`, which changes
    nothing. -/
theorem shifted_apply (x : S8x32x256x256.Idx → EReal) (n : Fin 8) (k : Fin 32) (h w : Fin 256) :
    val_main_v6 (F := Ideal) x (ix4 n k h w) = shifted (col x n h w) k := by
  have e : idx_main_v3 (idx_main_v4 (ix4 n k h w)) = ix3 n h w := funext fun a => Fin.ext (by
    match a with | ⟨0, _⟩ => rfl | ⟨1, _⟩ => rfl | ⟨2, _⟩ => rfl)
  rw [val_main_v6_apply, val_main_v5_apply, val_main_v4_apply, val_main_v3_apply, val_main_v2_apply, val_main_v1_apply,
    val_main_cst_0_apply, e, chanMax_apply]
  show Ideal.exp (x (ix4 n k h w) - max (Ideal.ofBits .f32 0xFF800000#32) (colMax (col x n h w))) = _
  rw [max_colMax]
  rfl

/-- Their sum over the channels at `(n, h, w)`. -/
theorem expSum_apply (x : S8x32x256x256.Idx → EReal) (n : Fin 8) (h w : Fin 256) :
    val_main_v7 (F := Ideal) x (ix3 n h w) = ∑ k, shifted (col x n h w) k := by
  have e : ∀ k, idx_main_v7 (ix3 n h w) k = ix4 n k h w := fun k => funext fun a => Fin.ext (by
    match a with | ⟨0, _⟩ => rfl | ⟨1, _⟩ => rfl | ⟨2, _⟩ => rfl | ⟨3, _⟩ => rfl)
  rw [val_main_v7_apply, val_main_cst_1_apply]
  simp only [e, shifted_apply]
  exact zero_add_f32 _

/-- The softmax weight at `(n, k, h, w)`. -/
theorem soft_apply (x : S8x32x256x256.Idx → EReal) (n : Fin 8) (k : Fin 32) (h w : Fin 256) :
    val_main_v10 (F := Ideal) x (ix4 n k h w) = soft (col x n h w) k := by
  have e : idx_main_v8 (idx_main_v9 (ix4 n k h w)) = ix3 n h w := funext fun a => Fin.ext (by
    match a with | ⟨0, _⟩ => rfl | ⟨1, _⟩ => rfl | ⟨2, _⟩ => rfl)
  rw [val_main_v10_apply, val_main_v9_apply, val_main_v8_apply, e, expSum_apply, shifted_apply]
  rfl

/-- The second array goes through the same operations, so its weights are the same function of it. -/
theorem soft_apply' (x : S8x32x256x256.Idx → EReal) (n : Fin 8) (k : Fin 32) (h w : Fin 256) :
    val_main_v21 (F := Ideal) x (ix4 n k h w) = soft (col x n h w) k :=
  (congrFun (rfl : val_main_v21 (F := Ideal) x = val_main_v10 (F := Ideal) x) _).trans (soft_apply x n k h w)

/-! ## The five means over the channels

Each is a sum over the channel axis started from the zero pattern and divided by 32: the mean of the spec. -/

/-- A sum from zero divided by 32 is the spec's mean. -/
theorem mean_of_div (f : Fin 32 → EReal) :
    Ideal.div (Ideal.ofBits .f32 0x00000000#32 + ∑ k, f k) (Ideal.ofBits .f32 0x42000000#32) = mean32 f := by
  rw [zero_add_f32, div_thirtyTwo]
  rfl

theorem meanP_apply (x : S8x32x256x256.Idx → EReal) (n : Fin 8) (h w : Fin 256) :
    val_main_v24 (F := Ideal) x (ix3 n h w) = mean32 (soft (col x n h w)) := by
  have e : ∀ k, idx_main_v22 (ix3 n h w) k = ix4 n k h w := fun k => funext fun a => Fin.ext (by
    match a with | ⟨0, _⟩ => rfl | ⟨1, _⟩ => rfl | ⟨2, _⟩ => rfl | ⟨3, _⟩ => rfl)
  rw [val_main_v24_apply, val_main_v23_apply, val_main_cst_6_apply, val_main_v22_apply, val_main_cst_5_apply]
  simp only [e, soft_apply]
  exact mean_of_div _

theorem meanQ_apply (x : S8x32x256x256.Idx → EReal) (n : Fin 8) (h w : Fin 256) :
    val_main_v27 (F := Ideal) x (ix3 n h w) = mean32 (soft (col x n h w)) := by
  have e : ∀ k, idx_main_v25 (ix3 n h w) k = ix4 n k h w := fun k => funext fun a => Fin.ext (by
    match a with | ⟨0, _⟩ => rfl | ⟨1, _⟩ => rfl | ⟨2, _⟩ => rfl | ⟨3, _⟩ => rfl)
  rw [val_main_v27_apply, val_main_v26_apply, val_main_cst_8_apply, val_main_v25_apply, val_main_cst_7_apply]
  simp only [e, soft_apply']
  exact mean_of_div _

theorem meanPP_apply (x : S8x32x256x256.Idx → EReal) (n : Fin 8) (h w : Fin 256) :
    val_main_v31 (F := Ideal) x (ix3 n h w) = mean32 (fun k => soft (col x n h w) k * soft (col x n h w) k) := by
  have e : ∀ k, idx_main_v29 (ix3 n h w) k = ix4 n k h w := fun k => funext fun a => Fin.ext (by
    match a with | ⟨0, _⟩ => rfl | ⟨1, _⟩ => rfl | ⟨2, _⟩ => rfl | ⟨3, _⟩ => rfl)
  rw [val_main_v31_apply, val_main_v30_apply, val_main_cst_10_apply, val_main_v29_apply, val_main_cst_9_apply]
  simp only [e, val_main_v28_apply, soft_apply]
  exact mean_of_div _

theorem meanQQ_apply (x : S8x32x256x256.Idx → EReal) (n : Fin 8) (h w : Fin 256) :
    val_main_v35 (F := Ideal) x (ix3 n h w) = mean32 (fun k => soft (col x n h w) k * soft (col x n h w) k) := by
  have e : ∀ k, idx_main_v33 (ix3 n h w) k = ix4 n k h w := fun k => funext fun a => Fin.ext (by
    match a with | ⟨0, _⟩ => rfl | ⟨1, _⟩ => rfl | ⟨2, _⟩ => rfl | ⟨3, _⟩ => rfl)
  rw [val_main_v35_apply, val_main_v34_apply, val_main_cst_12_apply, val_main_v33_apply, val_main_cst_11_apply]
  simp only [e, val_main_v32_apply, soft_apply']
  exact mean_of_div _

theorem meanPQ_apply (x0 x1 : S8x32x256x256.Idx → EReal) (n : Fin 8) (h w : Fin 256) :
    val_main_v39 (F := Ideal) x0 x1 (ix3 n h w)
      = mean32 (fun k => soft (col x0 n h w) k * soft (col x1 n h w) k) := by
  have e : ∀ k, idx_main_v37 (ix3 n h w) k = ix4 n k h w := fun k => funext fun a => Fin.ext (by
    match a with | ⟨0, _⟩ => rfl | ⟨1, _⟩ => rfl | ⟨2, _⟩ => rfl | ⟨3, _⟩ => rfl)
  rw [val_main_v39_apply, val_main_v38_apply, val_main_cst_14_apply, val_main_v37_apply, val_main_cst_13_apply]
  simp only [e, val_main_v36_apply, soft_apply, soft_apply']
  exact mean_of_div _

/-! ## The correlation and the choice by the mark -/

theorem score_apply (x0 x1 : S8x32x256x256.Idx → EReal) (n : Fin 8) (h w : Fin 256) :
    val_main_v49 (F := Ideal) x0 x1 (ix3 n h w) = score (col x0 n h w) (col x1 n h w) := by
  rw [val_main_v49_apply, val_main_v41_apply, val_main_v48_apply, val_main_v40_apply, val_main_v44_apply,
    val_main_v47_apply, val_main_v43_apply, val_main_v46_apply, val_main_v42_apply, val_main_v45_apply,
    meanPQ_apply, meanP_apply, meanQ_apply, meanPP_apply, meanQQ_apply]
  rfl

/-- The reference's per-pixel array at a pixel is the spec's loss there. -/
theorem loss_apply (x0 x1 : S8x32x256x256.Idx → EReal) (x2 : S8x256x256.Idx → BitVec 32) (i : S8x256x256.Idx) :
    val_main_v56 (F := Ideal) x0 x1 x2 i = lossMap x0 x1 x2 i := by
  obtain ⟨n, h, w, rfl⟩ : ∃ (n : Fin 8) (h w : Fin 256), i = ix3 n h w := ⟨i 0, i 1, i 2, eq_ix3 i⟩
  rw [val_main_v56_apply, val_main_v51_apply, val_main_v50_apply, val_main_c_apply, val_main_v53_apply,
    val_main_v52_apply, val_main_cst_15_apply, val_main_v55_apply, val_main_v54_apply, val_main_cst_16_apply, score_apply]
  rfl

theorem loss_eq (x0 x1 : S8x32x256x256.Idx → EReal) (x2 : S8x256x256.Idx → BitVec 32) :
    val_main_v56 (F := Ideal) x0 x1 x2 = lossMap x0 x1 x2 :=
  funext (loss_apply x0 x1 x2)

/-- The reference's result is the mean of the loss map: its last two operations are `meanAll`'s. -/
theorem result_eq (x0 x1 : S8x32x256x256.Idx → EReal) (x2 : S8x256x256.Idx → BitVec 32) :
    val_main_v58 (F := Ideal) x0 x1 x2 = loss x0 x1 x2 := by
  unfold loss
  rw [← loss_eq]
  rfl

end Cert.Pearson.Ref

end
-- ==== Proof.PearsonKernel.lean ====
/-
  What the kernel body stores at one entry of its output block is the spec's loss of the two input columns there.

  The body sees a `[1, 32, 64, 256]` block of each array and a `[1, 64, 256]` block of marks. It drops the unit axis, reduces
  over the channel axis (axis 0 of `[32, 64, 256]`) for the maximum and for each sum, and puts a reduced `[64, 256]` value
  back over the channels by giving it a unit axis and broadcasting. Read at `(k, r, q)` such a broadcast is the reduced
  value at `(r, q)`, and a reduction at `(r, q)` ranges over the block's column `(0, ·, r, q)`: so every stage at row `r`,
  lane `q` is the spec's stage of that column.
-/
import proofs.«124910_j17016660427303_1_alg».proof.Proof.Gen.KernelIdeal.Skeleton
import proofs.«124910_j17016660427303_1_alg».proof.Proof.PearsonSpec
import Idealize.ShloMosaic.Lib.ValueIdx
import Idealize.ShloMosaic.Lib.ValueLayout
import Idealize.ShloMosaic.Lib.Pipeline.Value
import Idealize.ShloMosaic.PureOps.Ideal.Laws

noncomputable section

namespace Cert.Pearson.Ker

open Cert.KernelIdeal Cert.KernelIdeal.Gen
open Idealize.ShloMosaic Idealize.ShloMosaic.ValueIdx Cert.Pearson

/-- The column `(0, ·, r, q)` of a `[1, 32, 64, 256]` block. -/
abbrev bcol (x : S1x32x64x256.Idx → EReal) (r : Fin 64) (q : Fin 256) : Fin 32 → EReal :=
  fun k => x (ix4 (0 : Fin 1) k r q)

/-! ## The layout steps and the two reductions, read at an index -/

theorem exp_apply {s : Shape} (a : FVec Ideal s .f32) (i : s.Idx) : exp a i = Ideal.exp (a i) := rfl
theorem sqrt_apply {s : Shape} (a : FVec Ideal s .f32) (i : s.Idx) : sqrt a i = Ideal.sqrt (a i) := rfl

/-- The block without its unit axis, at `(k, r, q)`. -/
theorem drop_apply (x : S1x32x64x256.Idx → EReal) (k : Fin 32) (r : Fin 64) (q : Fin 256) :
    shapeCast S32x64x256 x shapeCasts_S1x32x64x256_S32x64x256 (ix3 k r q) = x (ix4 (0 : Fin 1) k r q) :=
  shapeCast_1abc_abc_apply x _ k r q

/-- A `[64, 256]` value given a unit channel axis and broadcast over the 32 channels, at `(k, r, q)`: the value at `(r, q)`. -/
theorem spread_apply (y : FVec Ideal S64x256 .f32) (k : Fin 32) (r : Fin 64) (q : Fin 256) :
    broadcastTo S32x64x256 (shapeCast S1x64x256 y shapeCasts_S64x256_S1x64x256) broadcasts_S1x64x256_S32x64x256 (ix3 k r q)
      = y (ix2 r q) := by
  refine (broadcastTo_apply _ broadcasts_S1x64x256_S32x64x256 (ix3 k r q) (ix3 (0 : Fin 1) r q) fun a => ?_).trans
    (shapeCast_ab_1ab_apply y _ 0 r q)
  match a with | ⟨0, _⟩ => rfl | ⟨1, _⟩ => rfl | ⟨2, _⟩ => rfl

/-- A sum over the channel axis at `(r, q)`. -/
theorem chanSum_apply (y : FVec Ideal S32x64x256 .f32) (r : Fin 64) (q : Fin 256) :
    multiReduction .add [0] S64x256 y 0x00000000#32 reduces_S32x64x256_S64x256 (.inl rfl) rfl (ix2 r q)
      = ∑ k : Fin 32, y (ix3 k r q) := by
  refine (Ideal.multiReduction_add_single y _ reduces_S32x64x256_S64x256 (.inl rfl) rfl (ix2 r q)).trans ?_
  exact Finset.sum_congr rfl fun k _ => congrArg y (funext fun a => Fin.ext (by match a with | ⟨0, _⟩ => rfl | ⟨1, _⟩ => rfl | ⟨2, _⟩ => rfl))

/-- A maximum over the channel axis at `(r, q)`, from `-∞`. -/
theorem chanMax_apply (y : FVec Ideal S32x64x256 .f32) (r : Fin 64) (q : Fin 256) :
    multiReduction .maximumf [0] S64x256 y 0xFF800000#32 reduces_S32x64x256_S64x256 (.inl rfl) rfl (ix2 r q)
      = (Finset.univ : Finset (Fin 32)).fold max (Ideal.ofBits .f32 0xFF800000#32) (fun k => y (ix3 k r q)) := by
  have e : y ∘ reduces_S32x64x256_S64x256.lift (ix2 r q) = fun k => y (ix3 k r q) :=
    funext fun k => congrArg y (funext fun a => Fin.ext (by match a with | ⟨0, _⟩ => rfl | ⟨1, _⟩ => rfl | ⟨2, _⟩ => rfl))
  refine (Ideal.multiReduction_maximumf_single y _ reduces_S32x64x256_S64x256 (.inl rfl) rfl (ix2 r q)).trans ?_
  rw [e]
  rfl

/-! ## The softmax weights of a block -/

/-- The block's maximum over the channels. -/
def blkMax (x : S1x32x64x256.Idx → EReal) : FVec Ideal S64x256 .f32 :=
  multiReduction .maximumf [0] S64x256 (shapeCast S32x64x256 x shapeCasts_S1x32x64x256_S32x64x256) 0xFF800000#32
    reduces_S32x64x256_S64x256 (.inl rfl) rfl

/-- The block shifted by that maximum and exponentiated. -/
def blkShift (x : S1x32x64x256.Idx → EReal) : FVec Ideal S32x64x256 .f32 :=
  exp (subf (shapeCast S32x64x256 x shapeCasts_S1x32x64x256_S32x64x256)
    (broadcastTo S32x64x256 (shapeCast S1x64x256 (blkMax x) shapeCasts_S64x256_S1x64x256) broadcasts_S1x64x256_S32x64x256))

/-- The sum of those over the channels. -/
def blkSum (x : S1x32x64x256.Idx → EReal) : FVec Ideal S64x256 .f32 :=
  multiReduction .add [0] S64x256 (blkShift x) 0x00000000#32 reduces_S32x64x256_S64x256 (.inl rfl) rfl

/-- The body's weights of its first block are the quotient of the two. -/
theorem pay2_eq (x : S1x32x64x256.Idx → EReal) :
    k0_pay2 (F := Ideal) x = divf (blkShift x)
      (broadcastTo S32x64x256 (shapeCast S1x64x256 (blkSum x) shapeCasts_S64x256_S1x64x256) broadcasts_S1x64x256_S32x64x256) := rfl

/-- Its weights of the second block are the same function of that block. -/
theorem pay3_eq (x : S1x32x64x256.Idx → EReal) : k0_pay3 (F := Ideal) x = k0_pay2 (F := Ideal) x := rfl

theorem blkMax_apply (x : S1x32x64x256.Idx → EReal) (r : Fin 64) (q : Fin 256) :
    blkMax x (ix2 r q) = colMax (bcol x r q) := by
  unfold blkMax
  refine (chanMax_apply _ r q).trans ?_
  simp only [drop_apply]
  rfl

theorem blkShift_apply (x : S1x32x64x256.Idx → EReal) (k : Fin 32) (r : Fin 64) (q : Fin 256) :
    blkShift x (ix3 k r q) = shifted (bcol x r q) k := by
  unfold blkShift
  rw [exp_apply, subf_apply, drop_apply, spread_apply, blkMax_apply]
  rfl

theorem blkSum_apply (x : S1x32x64x256.Idx → EReal) (r : Fin 64) (q : Fin 256) :
    blkSum x (ix2 r q) = ∑ k, shifted (bcol x r q) k := by
  unfold blkSum
  refine (chanSum_apply _ r q).trans ?_
  simp only [blkShift_apply]

theorem pay2_apply (x : S1x32x64x256.Idx → EReal) (k : Fin 32) (r : Fin 64) (q : Fin 256) :
    k0_pay2 (F := Ideal) x (ix3 k r q) = soft (bcol x r q) k := by
  rw [pay2_eq, divf_apply, blkShift_apply, spread_apply, blkSum_apply]
  rfl

theorem pay3_apply (x : S1x32x64x256.Idx → EReal) (k : Fin 32) (r : Fin 64) (q : Fin 256) :
    k0_pay3 (F := Ideal) x (ix3 k r q) = soft (bcol x r q) k := by
  rw [pay3_eq]
  exact pay2_apply x k r q

/-! ## The five channel sums, and the entry the body stores -/

theorem pay4_apply (x : S1x32x64x256.Idx → EReal) (r : Fin 64) (q : Fin 256) :
    k0_pay4 (F := Ideal) x (ix2 r q) = ∑ k, soft (bcol x r q) k * soft (bcol x r q) k := by
  unfold k0_pay4
  refine (chanSum_apply _ r q).trans ?_
  simp only [mulf_apply, pay3_apply]

theorem pay5_apply (x0 x1 : S1x32x64x256.Idx → EReal) (r : Fin 64) (q : Fin 256) :
    k0_pay5 (F := Ideal) x0 x1 (ix2 r q) = ∑ k, soft (bcol x0 r q) k * soft (bcol x1 r q) k := by
  unfold k0_pay5
  refine (chanSum_apply _ r q).trans ?_
  simp only [mulf_apply, pay2_apply, pay3_apply]

theorem pay6_apply (x : S1x32x64x256.Idx → EReal) (r : Fin 64) (q : Fin 256) :
    k0_pay6 (F := Ideal) x (ix2 r q) = mean32 (soft (bcol x r q)) := by
  unfold k0_pay6
  refine (congrArg (· * Ideal.ofBits .f32 0x3D000000#32) ((chanSum_apply _ r q).trans ?_)).trans rfl
  simp only [pay2_apply]

theorem pay7_apply (x : S1x32x64x256.Idx → EReal) (r : Fin 64) (q : Fin 256) :
    k0_pay7 (F := Ideal) x (ix2 r q) = mean32 (soft (bcol x r q)) := by
  unfold k0_pay7
  refine (congrArg (· * Ideal.ofBits .f32 0x3D000000#32) ((chanSum_apply _ r q).trans ?_)).trans rfl
  simp only [pay3_apply]

theorem pay8_apply (x : S1x32x64x256.Idx → EReal) (r : Fin 64) (q : Fin 256) :
    k0_pay8 (F := Ideal) x (ix2 r q) = mean32 (fun k => soft (bcol x r q) k * soft (bcol x r q) k) := by
  unfold k0_pay8
  refine (congrArg (· * Ideal.ofBits .f32 0x3D000000#32) ((chanSum_apply _ r q).trans ?_)).trans rfl
  simp only [mulf_apply, pay2_apply]

theorem pay9_apply (r : Fin 64) (q : Fin 256) :
    k0_pay9 (F := Ideal) (ix2 r q) = Ideal.ofBits .f32 0x3D000000#32 := rfl

/-- The stored payload at `(u, r, q)`, over any six `[64, 256]` values and any block of marks: the correlation formula at
    `(r, q)` and the choice by the mark at `(0, r, q)`. -/
theorem pay1_apply (v27 v29 v31 v33 v35 v36 : FVec Ideal S64x256 .f32) (v50 : S1x64x256.Idx → BitVec 32)
    (u : Fin 1) (r : Fin 64) (q : Fin 256) :
    k0_pay1 (F := Ideal) v27 v29 v31 v33 v35 v36 v50 (ix3 u r q)
      = Scalar.select (IntOp.cmpi .eq (v50 (ix3 (0 : Fin 1) r q)) 0#32)
          (Ideal.ofBits .f32 0x3F800000#32
            - Ideal.div (v29 (ix2 r q) * Ideal.ofBits .f32 0x3D000000#32 - v31 (ix2 r q) * v33 (ix2 r q))
                (Ideal.sqrt (v35 (ix2 r q) - v31 (ix2 r q) * v31 (ix2 r q))
                  * Ideal.sqrt (v27 (ix2 r q) * v36 (ix2 r q) - v33 (ix2 r q) * v33 (ix2 r q))))
          (max (Ideal.div (v29 (ix2 r q) * Ideal.ofBits .f32 0x3D000000#32 - v31 (ix2 r q) * v33 (ix2 r q))
                (Ideal.sqrt (v35 (ix2 r q) - v31 (ix2 r q) * v31 (ix2 r q))
                  * Ideal.sqrt (v27 (ix2 r q) * v36 (ix2 r q) - v33 (ix2 r q) * v33 (ix2 r q))))
            (Ideal.ofBits .f32 0x00000000#32)) := by
  unfold k0_pay1
  refine (shapeCast_ab_1ab_apply _ shapeCasts_S64x256_S1x64x256 u r q).trans ?_
  rw [select_apply]
  refine congrArg (fun g => Scalar.select (IntOp.cmpi .eq g 0#32) _ _) ?_
  exact shapeCast_1ab_ab_apply v50 shapeCasts_S1x64x256_S64x256 r q

/-- THE BODY'S ENTRY: what the body stores at `(u, r, q)` of its output block, from its three input blocks, is the spec's
    loss of the blocks' columns `(0, ·, r, q)` and the mark at `(0, r, q)`. -/
theorem stored_apply (x0 x1 : S1x32x64x256.Idx → EReal) (x2 : S1x64x256.Idx → BitVec 32) (u : Fin 1) (r : Fin 64) (q : Fin 256) :
    k0_pay1 (F := Ideal) (k0_pay4 x1) (k0_pay5 x0 x1) (k0_pay6 x0) (k0_pay7 x1) (k0_pay8 x0) (k0_pay9 (F := Ideal)) x2 (ix3 u r q)
      = pixel (bcol x0 r q) (bcol x1 r q) (x2 (ix3 (0 : Fin 1) r q)) := by
  rw [pay1_apply, pay4_apply, pay5_apply, pay6_apply, pay7_apply, pay8_apply, pay9_apply]
  rfl

/-- The same, against whole arrays: if the three blocks hold, at row `y 1` and lane `y 2`, the arrays' entries of pixel `i`
    — the two columns and the mark —, the stored entry at `y` is the loss map of the arrays at `i`. -/
theorem stored_eq_loss (X0 X1 : S1x32x64x256.Idx → EReal) (X2 : S1x64x256.Idx → BitVec 32)
    (A0 A1 : S8x32x256x256.Idx → EReal) (A2 : S8x256x256.Idx → BitVec 32) (y : S1x64x256.Idx) (i : S8x256x256.Idx)
    (h0 : ∀ k : Fin 32, X0 (ix4 (0 : Fin 1) k (y 1) (y 2)) = A0 (ix4 (i 0) k (i 1) (i 2)))
    (h1 : ∀ k : Fin 32, X1 (ix4 (0 : Fin 1) k (y 1) (y 2)) = A1 (ix4 (i 0) k (i 1) (i 2)))
    (h2 : X2 (ix3 (0 : Fin 1) (y 1) (y 2)) = A2 i) :
    k0_pay1 (F := Ideal) (k0_pay4 X1) (k0_pay5 X0 X1) (k0_pay6 X0) (k0_pay7 X1) (k0_pay8 X0) (k0_pay9 (F := Ideal)) X2 y
      = lossMap A0 A1 A2 i := by
  obtain ⟨u, r, q, rfl⟩ : ∃ (u : Fin 1) (r : Fin 64) (q : Fin 256), y = ix3 u r q := ⟨y 0, y 1, y 2, eq_ix3 y⟩
  rw [stored_apply]
  unfold lossMap
  rw [show bcol X0 r q = fun k => A0 (ix4 (i 0) k (i 1) (i 2)) from funext h0,
    show bcol X1 r q = fun k => A1 (ix4 (i 0) k (i 1) (i 2)) from funext h1,
    show X2 (ix3 (0 : Fin 1) r q) = A2 i from h2]

end Cert.Pearson.Ker

end
-- ==== Proof.PearsonBlocks.lean ====
/-
  From the kernel's blocks to its whole output array, and on through the mean that follows the region.

  The grid is 8 × 4: point `(n, g)` works on rows `64 g … 64 g + 63` of image `n`. Its three input blocks are the two arrays'
  entries `(n, ·, 64 g + r, q)` and the marks `(n, 64 g + r, q)`; its output block is the same rows of the `[8, 256, 256]`
  result. So the entry the body stores at `(0, r, q)` is the loss map of the whole arrays at `(n, 64 g + r, q)`: what a point
  writes back is a block of ONE function of the arrays. The 32 blocks tile the result (pixel `(n, h, w)` lies in the block
  of point `(n, h / 64)`), so after the region the result array is the loss map; the host lines that follow sum it and
  divide by the number of pixels.
-/
import proofs.«124910_j17016660427303_1_alg».proof.Proof.Gen.KernelIdeal.Frame
import proofs.«124910_j17016660427303_1_alg».proof.Proof.PearsonKernel
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.Pearson.Blocks

open Cert.KernelIdeal Cert.KernelIdeal.Gen Cert.Pearson

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The loss map of the argument arrays as the region finds them. -/
abbrev lossAt (c : Dev nD) : S8x256x256.Idx → EReal :=
  lossMap (V m c main_arg0 : S8x32x256x256.Idx → EReal) (V m c main_arg1 : S8x32x256x256.Idx → EReal)
    (V m c main_arg2 : S8x256x256.Idx → BitVec 32)

/-- The four index maps, decided over the 32 grid points: the inputs' blocks sit at the output block's image and row
    block, whole in the channel and lane axes. -/
theorem idx_facts : ∀ t : Fin cfg0.N,
    win0_0.index t (0 : Fin 4) = win0_3.index t (0 : Fin 3) ∧ win0_0.index t (1 : Fin 4) = 0
    ∧ win0_0.index t (2 : Fin 4) = win0_3.index t (1 : Fin 3) ∧ win0_0.index t (3 : Fin 4) = 0
    ∧ win0_1.index t (0 : Fin 4) = win0_3.index t (0 : Fin 3) ∧ win0_1.index t (1 : Fin 4) = 0
    ∧ win0_1.index t (2 : Fin 4) = win0_3.index t (1 : Fin 3) ∧ win0_1.index t (3 : Fin 4) = 0
    ∧ win0_2.index t (0 : Fin 3) = win0_3.index t (0 : Fin 3) ∧ win0_2.index t (1 : Fin 3) = win0_3.index t (1 : Fin 3)
    ∧ win0_2.index t (2 : Fin 3) = 0 ∧ win0_3.index t (2 : Fin 3) = 0 :=
  (by decide +kernel : ∀ t : Fin grid0.N, _)

/-- Every (image, row block) pair is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-! ## The input blocks as entries of the arrays -/

/-- The first array's block at point `t`, at `(0, k, y 1, y 2)`, is the array's entry `(i 0, k, i 1, i 2)` where `i` is the
    pixel the output block puts `y` at. -/
theorem iblk0_apply (c : Dev nD) (t : Fin cfg0.N) (k : Fin 32) (y : S1x64x256.Idx) :
    (iblk m c 0 t : S1x32x64x256.Idx → EReal) (ix4 (0 : Fin 1) k (y 1) (y 2))
      = (V m c main_arg0 : S8x32x256x256.Idx → EReal)
          (ix4 ((((cfg0.win 3).blk t).view.emb y : S8x256x256.Idx) 0) k
            ((((cfg0.win 3).blk t).view.emb y : S8x256x256.Idx) 1) ((((cfg0.win 3).blk t).view.emb y : S8x256x256.Idx) 2)) := by
  obtain ⟨e0, e1, e2, e3, -⟩ := idx_facts t
  have hy : (y 0).val = 0 := by have h1 : (y 0).val < 1 := (y 0).isLt; omega
  unfold iblk
  rw [View.read_apply]
  show V m c main_arg0 _ = V m c main_arg0 _
  congr 1
  funext a
  apply Fin.ext
  match a with
  | ⟨0, _⟩ => show win0_0.index t (0 : Fin 4) * 1 + 1 * 0 = win0_3.index t (0 : Fin 3) * 1 + 1 * (y 0).val; omega
  | ⟨1, _⟩ => show win0_0.index t (1 : Fin 4) * 32 + 1 * k.val = k.val; omega
  | ⟨2, _⟩ => show win0_0.index t (2 : Fin 4) * 64 + 1 * (y 1).val = win0_3.index t (1 : Fin 3) * 64 + 1 * (y 1).val; omega
  | ⟨3, _⟩ => show win0_0.index t (3 : Fin 4) * 256 + 1 * (y 2).val = win0_3.index t (2 : Fin 3) * 256 + 1 * (y 2).val
              have := (idx_facts t).2.2.2.2.2.2.2.2.2.2.2; omega

/-- The second array's block, likewise. -/
theorem iblk1_apply (c : Dev nD) (t : Fin cfg0.N) (k : Fin 32) (y : S1x64x256.Idx) :
    (iblk m c 1 t : S1x32x64x256.Idx → EReal) (ix4 (0 : Fin 1) k (y 1) (y 2))
      = (V m c main_arg1 : S8x32x256x256.Idx → EReal)
          (ix4 ((((cfg0.win 3).blk t).view.emb y : S8x256x256.Idx) 0) k
            ((((cfg0.win 3).blk t).view.emb y : S8x256x256.Idx) 1) ((((cfg0.win 3).blk t).view.emb y : S8x256x256.Idx) 2)) := by
  obtain ⟨-, -, -, -, e0, e1, e2, e3, -⟩ := idx_facts t
  have hy : (y 0).val = 0 := by have h1 : (y 0).val < 1 := (y 0).isLt; omega
  unfold iblk
  rw [View.read_apply]
  show V m c main_arg1 _ = V m c main_arg1 _
  congr 1
  funext a
  apply Fin.ext
  match a with
  | ⟨0, _⟩ => show win0_1.index t (0 : Fin 4) * 1 + 1 * 0 = win0_3.index t (0 : Fin 3) * 1 + 1 * (y 0).val; omega
  | ⟨1, _⟩ => show win0_1.index t (1 : Fin 4) * 32 + 1 * k.val = k.val; omega
  | ⟨2, _⟩ => show win0_1.index t (2 : Fin 4) * 64 + 1 * (y 1).val = win0_3.index t (1 : Fin 3) * 64 + 1 * (y 1).val; omega
  | ⟨3, _⟩ => show win0_1.index t (3 : Fin 4) * 256 + 1 * (y 2).val = win0_3.index t (2 : Fin 3) * 256 + 1 * (y 2).val
              have := (idx_facts t).2.2.2.2.2.2.2.2.2.2.2; omega

/-- The block of marks at `(0, y 1, y 2)` is the mark of the pixel the output block puts `y` at. -/
theorem iblk2_apply (c : Dev nD) (t : Fin cfg0.N) (y : S1x64x256.Idx) :
    (iblk m c 2 t : S1x64x256.Idx → BitVec 32) (ix3 (0 : Fin 1) (y 1) (y 2))
      = (V m c main_arg2 : S8x256x256.Idx → BitVec 32) (((cfg0.win 3).blk t).view.emb y) := by
  obtain ⟨-, -, -, -, -, -, -, -, e0, e1, e2, e3⟩ := idx_facts t
  have hy : (y 0).val = 0 := by have h1 : (y 0).val < 1 := (y 0).isLt; omega
  unfold iblk
  rw [View.read_apply]
  show V m c main_arg2 _ = V m c main_arg2 _
  congr 1
  funext a
  apply Fin.ext
  match a with
  | ⟨0, _⟩ => show win0_2.index t (0 : Fin 3) * 1 + 1 * 0 = win0_3.index t (0 : Fin 3) * 1 + 1 * (y 0).val; omega
  | ⟨1, _⟩ => show win0_2.index t (1 : Fin 3) * 64 + 1 * (y 1).val = win0_3.index t (1 : Fin 3) * 64 + 1 * (y 1).val; omega
  | ⟨2, _⟩ => show win0_2.index t (2 : Fin 3) * 256 + 1 * (y 2).val = win0_3.index t (2 : Fin 3) * 256 + 1 * (y 2).val; omega

/-! ## What a point writes back, and the array after the region -/

/-- WHAT POINT `t` WRITES BACK is block `t` of the loss map of the arrays. -/
theorem flushed_eq (c : Dev nD) (t : Fin cfg0.N) :
    (dats m 0 c).flushed 3 t = ((cfg0.win 3).blk t).view.read (Elt Ideal) (lossAt m c) := by
  show (cfg0.win 3).cut (grid0.coords t) ((dats m 0 c).after 3 t) = _
  rw [after0_3]
  unfold out0_3
  rw [View.canon_unit_zero hz3]
  simp only [View.ld_unit_zero (S := S1x32x64x256) hz4, View.ld_unit_zero (S := S1x64x256) hz3]
  funext y
  rw [View.read_apply]
  exact Ker.stored_eq_loss _ _ _ _ _ _ y _ (fun k => iblk0_apply m c t k y) (fun k => iblk1_apply m c t k y)
    (iblk2_apply m c t y)

/-- A pixel is in point `t`'s output block iff each coordinate is in the block's range on its axis. -/
theorem mem_blk (t : Fin cfg0.N) (i : S8x256x256.Idx) :
    i ∈ ((cfg0.win 3).blk t).view.set ↔ ∀ a : Fin 3, win0_3.index t a * S1x64x256.size a ≤ (i a).val
      ∧ (i a).val < win0_3.index t a * S1x64x256.size a + S1x64x256.size a := by
  show i ∈ ((View.whole main_v0).slice (win0_3.rect t)).set ↔ _
  rw [View.set_slice_whole, Rect.mem_set_unit]
  exact Iff.rfl

/-- Every pixel `(n, h, w)` is in the block of the point at image `n`, row block `h / 64`. -/
theorem cover (i : S8x256x256.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 256 := (i 2).isLt
  obtain ⟨t, ht⟩ := idx_onto ⟨(i 0).val, hi0⟩ ⟨(i 1).val / 64, by omega⟩
  have q0 : win0_3.index t (0 : Fin 3) = (i 0).val := congrFun ht 0
  have q1 : win0_3.index t (1 : Fin 3) = (i 1).val / 64 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 256 ≤ (i 2).val ∧ (i 2).val < win0_3.index t (2 : Fin 3) * 256 + 256; omega

/-- THE RESULT ARRAY after the region is the loss map of the arrays. -/
theorem final (c : Dev nD) : (dats m 0 c).arrAt 3 cfg0.N = lossAt m c :=
  (dats m 0 c).arrAt_eq_of_cover 3 (lossAt m c) (fun t _ => flushed_eq m c t) cover

/-! ## The host lines after the region, and the run -/

/-- The kernel's result: the mean of the loss map of the argument arrays. -/
abbrev result (c : Dev nD) : S_.Idx → EReal :=
  loss (m ((c.tc : Thread nD τ).loc main_arg0) : S8x32x256x256.Idx → EReal)
    (m ((c.tc : Thread nD τ).loc main_arg1) : S8x32x256x256.Idx → EReal)
    (m ((c.tc : Thread nD τ).loc main_arg2) : S8x256x256.Idx → BitVec 32)

/-- The lines after the region sum the region's result array and divide by the number of pixels: applied to the array
    the region leaves — the loss map — they give the mean of the loss map. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 3).trans (final m c)]
  rfl

/-- THE RUN, READ: every weakly fair execution of the kernel program ends with its result at the mean of the loss map of
    the argument arrays, and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Pearson.Blocks

end
-- ==== Proof.lean ====
/-
  The five claims of this certificate, for a kernel that computes a Pearson-correlation loss between two softmax maps.

  Per pixel `(n, h, w)` both programs take the two columns of 32 channel values, turn each into softmax weights `p`, `q`
  (subtract the column's maximum, exponentiate, divide by the sum), form the five channel means `E p`, `E q`, `E pp`,
  `E qq`, `E pq`, the correlation `(E pq - E p · E q) / (√(E pp - (E p)²) · √(E qq - (E q)²))`, and the loss `1 - score` or
  `max score 0` by an integer mark; then both average the loss over all pixels. `Cert.Pearson.loss` (Proof/PearsonSpec.lean)
  is that function on the extended reals.

  The reference computes it on whole arrays (Proof/PearsonReference.lean, over the generated read-at-an-index lemmas);
  the kernel computes it block by block over an 8 × 4 grid, each point owning 64 rows of one image with all 32 channels
  (Proof/PearsonKernel.lean: the body's stored entry; Proof/PearsonBlocks.lean: the blocks tile the result, and the host
  lines after the region take the mean). The two texts differ at a pixel in three places only — the reference takes the
  maximum once more against `-∞`, starts each sum from zero, and divides by 32 where the kernel multiplies by 2⁻⁵ — and each
  is an identity on every extended real, so the precondition (finite inputs) is never used.

  The three frames are the generated ones; the idealization rewrote nothing, so `preserves` is `True`.
-/
import proofs.«124910_j17016660427303_1_alg».proof.Defs
import proofs.«124910_j17016660427303_1_alg».proof.Proof.Gen.Kernel
import proofs.«124910_j17016660427303_1_alg».proof.Proof.Gen.Kernel.Skeleton
import proofs.«124910_j17016660427303_1_alg».proof.Proof.Gen.Kernel.Launch
import proofs.«124910_j17016660427303_1_alg».proof.Proof.Gen.Kernel.Points
import proofs.«124910_j17016660427303_1_alg».proof.Proof.Gen.Kernel.Frame
import proofs.«124910_j17016660427303_1_alg».proof.Proof.Gen.KernelIdeal
import proofs.«124910_j17016660427303_1_alg».proof.Proof.Gen.KernelIdeal.Skeleton
import proofs.«124910_j17016660427303_1_alg».proof.Proof.Gen.KernelIdeal.Launch
import proofs.«124910_j17016660427303_1_alg».proof.Proof.Gen.KernelIdeal.Points
import proofs.«124910_j17016660427303_1_alg».proof.Proof.Gen.KernelIdeal.Frame
import proofs.«124910_j17016660427303_1_alg».proof.Proof.Gen.ReferenceIdeal
import proofs.«124910_j17016660427303_1_alg».proof.Proof.Gen.Pre_finite_inputs
import proofs.«124910_j17016660427303_1_alg».proof.Proof.Gen.ReferenceIdeal.Run
import proofs.«124910_j17016660427303_1_alg».proof.Proof.Gen.ReferenceIdeal.Read
import proofs.«124910_j17016660427303_1_alg».proof.Proof.PearsonSpec
import proofs.«124910_j17016660427303_1_alg».proof.Proof.PearsonReference
import proofs.«124910_j17016660427303_1_alg».proof.Proof.PearsonKernel
import proofs.«124910_j17016660427303_1_alg».proof.Proof.PearsonBlocks
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On arguments that agree, the kernel's result is the mean of the loss map of its arrays (the blocks' run), and the
    reference's is the same function of its own (its run, read stage by stage): equal results. -/
theorem algebraic : Cert.algebraic_KernelIdeal_ReferenceIdeal := by
  intro m ρ m' ρ' _ hagree
  refine ⟨fun c => Cert.Pearson.Blocks.result m c, Cert.Pearson.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2]
  exact Cert.Pearson.Ref.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
